-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S8192x1024 .f32) (main_arg1 : FVec F S2048x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  main_v8
-- ==== Kernel.lean ====
abbrev S8192x1024 : Shape := ⟨2, ![8192, 1024]⟩
abbrev S2048x1024 : Shape := ⟨2, ![2048, 1024]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S512x1024 : Shape := ⟨2, ![512, 1024]⟩
abbrev S2048x512 : Shape := ⟨2, ![2048, 512]⟩
abbrev S1024x512 : Shape := ⟨2, ![1024, 512]⟩
abbrev S8192x2048x1 : Shape := ⟨3, ![8192, 2048, 1]⟩

abbrev nBuf : Space → Nat
  | .hbm => 24
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S2048x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S2048x1024, .f32⟩
  | .hbm, ⟨20, _⟩ => ⟨S2048x1024, .f32⟩
  | .hbm, ⟨21, _⟩ => ⟨S2048x1024, .bf16⟩
  | .hbm, ⟨22, _⟩ => ⟨S8192x2048, .f32⟩
  | .hbm, ⟨23, _⟩ => ⟨S8192x2048x1, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .f32⟩
  | .local _ .vmem, ⟨5, _⟩ => ⟨S2048x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S2048x1024_S_d0_1 : S2048x1024.ReducesTo [0, 1] S_
  h_S_ : 0 < S_.numel
  reducesTo_S8192x1024_S8192_d1 : S8192x1024.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  bitsLt_bf16_f32 : FTy.bits .bf16 < FTy.bits .f32
  bcast_S_S2048x1024 : S_.BroadcastsInDim S2048x1024 (![] : Fin 0 → Fin S2048x1024.rank)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  inb_S2048x512_S2048x512_0_0 : ∀ a, (![0, 0] : Fin 2 → Nat) a + S2048x512.size a ≤ S2048x512.size a
  h_S2048x512 : 0 < S2048x512.numel
  bcast_S8192x2048_S8192x2048x1_0_1 : S8192x2048.BroadcastsInDim S8192x2048x1 (![0, 1] : Fin 2 → Fin S8192x2048x1.rank)
  dot_S2048x1024_S1024x512_S2048x512_1_0_0_1_n_n_wf : DotDims.WF S2048x1024 S1024x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .bf16 = 32 ∨ (Rect.block (s := S8192x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S2048x1024.size a
  hwx0_1 : ∀ i : grid0.Coords, EltTy.bits .bf16 = 32 ∨ (Rect.block (s := S2048x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S8192x2048.size a
  hwx0_2 : ∀ i : grid0.Coords, EltTy.bits .f32 = 32 ∨ (Rect.block (s := S8192x2048) S2048x512.size (cc0_transform_2 i) (hinb0_2 i)).WholeWords (EltTy.packing .f32)

variable [Facts₀]

def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf

abbrev win0_0 : Pipeline.Window sig grid0 :=
  Pipeline.Window.ofSpec (Memref.whole main_v12) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S_ : Shape := ⟨0, ![]⟩
abbrev S8192 : Shape := ⟨1, ![8192]⟩
abbrev S8192x2048 : Shape := ⟨2, ![8192, 2048]⟩
abbrev S8192x1 : Shape := ⟨2, ![8192, 1]⟩
abbrev S8192x2048x1 : Shape := ⟨3, ![8192, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S2048x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S8192x2048, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S2048x1024_S_d0_1 : S2048x1024.ReducesTo [0, 1] S_
  h_S_ : 0 < S_.numel
  reducesTo_S8192x1024_S8192_d1 : S8192x1024.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  bcast_S8192x2048_S8192x2048x1_0_1 : S8192x2048.BroadcastsInDim S8192x2048x1 (![0, 1] : Fin 2 → Fin S8192x2048x1.rank)
  dot_S8192x1024_S2048x1024_S8192x2048_1_1_0_0_n_n_wf : DotDims.WF S8192x1024 S2048x1024 S8192x2048 [1] [1] [0] [0] [] []

variable [Facts₀]

def dot_S8192x1024_S2048x1024_S8192x2048_1_1_0_0_n_n : DotDims S8192x1024 S2048x1024 S8192x2048 where
  lhsContracting := [1]
  rhsContracting := [1]
  lhsNonContracting := [0]
  rhsNonContracting := [0]
  lhsBatch := []
  rhsBatch := []
  wf := dot_S8192x1024_S2048x1024_S8192x2048_1_1_0_0_n_n_wf

class Facts : Prop extends Facts₀ where

variable [Facts]
-- ==== Proof.Body.lean ====
/-
  The kernel body's one stored value, entry by entry.

  The body loads a block `A` of 2048 rows and a block `B` of 512 rows, each row 1024 long, transposes `B` and
  multiplies into a zero accumulator. So entry (p, q) of what it stores is the inner product of row p of `A` with
  row q of `B`:  Σ_k A[p, k] · B[q, k].  (At the ideal values the product has no rounding and no chunk order; the two
  shape casts are casts to the same shape.)
-/
import proofs.«162758_j37692632989824_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- The left operand's index at output index `i` and contraction index `κ`: the output's row. -/
theorem lhs_row (i : S2048x512.Idx) (κ : dot_S2048x1024_S1024x512_S2048x512_1_0_0_1_n_n.contr.Idx) :
    (dot_S2048x1024_S1024x512_S2048x512_1_0_0_1_n_n.lhsIdx i κ 0).val = (i 0).val := by
  unfold DotDims.lhsIdx
  rw [dif_neg (show ¬(0 : Fin S2048x1024.rank) ∈ dot_S2048x1024_S1024x512_S2048x512_1_0_0_1_n_n.lhsBatch by decide),
    dif_pos (show (0 : Fin S2048x1024.rank) ∈ dot_S2048x1024_S1024x512_S2048x512_1_0_0_1_n_n.lhsNonContracting by decide)]
  rfl

/-- … and the contraction index on its second axis. -/
theorem lhs_contr (i : S2048x512.Idx) (κ : dot_S2048x1024_S1024x512_S2048x512_1_0_0_1_n_n.contr.Idx) :
    (dot_S2048x1024_S1024x512_S2048x512_1_0_0_1_n_n.lhsIdx i κ 1).val = (κ ⟨0, by decide⟩).val :=
  dot_S2048x1024_S1024x512_S2048x512_1_0_0_1_n_n.lhsIdx_val_of_single rfl i κ

/-- The right operand (the transposed block) is read at the contraction index on its first axis … -/
theorem rhs_contr (i : S2048x512.Idx) (κ : dot_S2048x1024_S1024x512_S2048x512_1_0_0_1_n_n.contr.Idx) :
    (dot_S2048x1024_S1024x512_S2048x512_1_0_0_1_n_n.rhsIdx i κ 0).val = (κ ⟨0, by decide⟩).val :=
  dot_S2048x1024_S1024x512_S2048x512_1_0_0_1_n_n.rhsIdx_val_of_single rfl i κ

/-- … and at the output's column on its second. -/
theorem rhs_col (i : S2048x512.Idx) (κ : dot_S2048x1024_S1024x512_S2048x512_1_0_0_1_n_n.contr.Idx) :
    (dot_S2048x1024_S1024x512_S2048x512_1_0_0_1_n_n.rhsIdx i κ 1).val = (i 1).val := by
  unfold DotDims.rhsIdx
  rw [dif_neg (show ¬(1 : Fin S1024x512.rank) ∈ dot_S2048x1024_S1024x512_S2048x512_1_0_0_1_n_n.rhsBatch by decide),
    dif_pos (show (1 : Fin S1024x512.rank) ∈ dot_S2048x1024_S1024x512_S2048x512_1_0_0_1_n_n.rhsNonContracting by decide)]
  rfl

/-- ENTRY (p, q) of the stored value is the inner product of row `p` of the first block with row `q` of the second. -/
theorem pay_apply (A : Vec Ideal S2048x1024 .bf16) (B : Vec Ideal S512x1024 .bf16) (p : Fin 2048) (q : Fin 512) :
    k0_pay1 (F := Ideal) A B (ix2 p q) = ∑ k : Fin 1024, A (ix2 p k) * B (ix2 q k) := by
  unfold k0_pay1
  simp only [matmul]
  rw [Ideal.matmul_constant_zero_apply,
    ← Equiv.sum_comp (contrEquiv1 dot_S2048x1024_S1024x512_S2048x512_1_0_0_1_n_n 1024 rfl rfl).symm]
  refine Finset.sum_congr rfl fun k _ => ?_
  have hk := contrEquiv1_symm_val dot_S2048x1024_S1024x512_S2048x512_1_0_0_1_n_n 1024 rfl rfl k
  rw [shapeCast_self, shapeCast_self]
  refine congrArg₂ (· * ·) (congrArg A (funext fun a => Fin.ext ?_)) ?_
  · match a with
    | ⟨0, _⟩ => exact lhs_row _ _
    | ⟨1, _⟩ => exact (lhs_contr _ _).trans hk
  · refine transpose_apply _ B _ _ (ix2 q k) fun b => ?_
    match b with
    | ⟨0, _⟩ => show k.val = _; exact ((rhs_contr _ _).trans hk).symm
    | ⟨1, _⟩ => show q.val = _; exact (rhs_col (ix2 p q) _).symm

end Cert.KernelIdeal.Body

end
-- ==== Proof.Inputs.lean ====
/-
  The two arrays the kernel stages, as the region finds them, entry by entry.

  Before the region the host scales each row of the first argument `s` by that row's factor
  rsqrt (max (Σ_k s[n,k]², ε)) and the whole second argument `x` by the one factor rsqrt (max (Σ_{b,k} x[b,k]², ε)),
  then narrows both to bf16 — at the ideal values a narrowing changes nothing. The factors are computed by the very
  operations the reference uses, so they ARE the reference's factors:
      left[n, k]  = s[n, k] · rowFactor s n          right[b, k] = x[b, k] · wholeFactor x.
-/
import proofs.«162758_j37692632989824_1_alg».proof.Proof.Gen.KernelIdeal.Frame
import proofs.«162758_j37692632989824_1_alg».proof.Proof.Gen.ReferenceIdeal.Read
import Idealize.ShloMosaic.Lib.Pipeline.Value
import Idealize.ShloMosaic.Lib.ValueIdx
import Idealize.ShloMosaic.Lib.StableHlo.Run

noncomputable section

namespace Cert.KernelIdeal.Inputs

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The host's row factors of `s` (the operations of @main, in order). -/
def rowFactors (s : FVec F S8192x1024 .f32) : FVec F S8192 .f32 :=
  Host.rsqrt (maximumf (Host.reduceAdd (mulf s s) (constant S_ .f32 0x00000000#32) reducesTo_S8192x1024_S8192_d1 h_S_)
    (broadcastInDim S8192 ![] bcast_S_S8192 (constant S_ .f32 0x2EDBE6FF#32)))

/-- The host's one factor of `x`. -/
def wholeFactor (x : FVec F S2048x1024 .f32) : FVec F S_ .f32 :=
  Host.rsqrt (maximumf (Host.reduceAdd (mulf x x) (constant S_ .f32 0x00000000#32) reducesTo_S2048x1024_S_d0_1 h_S_)
    (constant S_ .f32 0x2EDBE6FF#32))

/-- The first staged array: every row of `s` times its factor, narrowed. -/
def left (s : FVec F S8192x1024 .f32) : FVec F S8192x1024 .bf16 :=
  truncf .bf16 (mulf s (broadcastInDim S8192x1024 ![0, 1] bcast_S8192x1_S8192x1024_0_1
    (broadcastInDim S8192x1 ![0] bcast_S8192_S8192x1_0 (rowFactors s)))) bitsLt_bf16_f32

/-- The second staged array: `x` times its factor, narrowed. -/
def right (x : FVec F S2048x1024 .f32) : FVec F S2048x1024 .bf16 :=
  truncf .bf16 (mulf x (broadcastInDim S2048x1024 ![] bcast_S_S2048x1024 (wholeFactor x))) bitsLt_bf16_f32

variable (m : (ℓ : Loc nD τ sig) → Buf (Elt F) ℓ)

/-- What the region finds in its first window's array. -/
theorem V_left (c : Dev nD) : V m c main_v12 = left (m ((c : Thread nD τ).loc main_arg0)) := by
  show StableHlo.after hostOps0 (fun b => m (c, b)) (Proc.devRef .tc main_v12) = _
  after_results
  rfl

/-- What the region finds in its second window's array. -/
theorem V_right (c : Dev nD) : V m c main_v15 = right (m ((c : Thread nD τ).loc main_arg1)) := by
  show StableHlo.after hostOps0 (fun b => m (c, b)) (Proc.devRef .tc main_v15) = _
  after_results
  rfl

/-- The host's row factors are the reference's. -/
theorem rowFactors_eq (s : FVec Ideal S8192x1024 .f32) :
    rowFactors (F := Ideal) s = Cert.ReferenceIdeal.Read.val_main_v8 (F := Ideal) s := rfl

/-- The host's whole-array factor is the reference's. -/
theorem wholeFactor_eq (x : FVec Ideal S2048x1024 .f32) :
    wholeFactor (F := Ideal) x = Cert.ReferenceIdeal.Read.val_main_v3 (F := Ideal) x := rfl

/-- ENTRY (n, k) of the first staged array. -/
theorem left_apply (s : FVec Ideal S8192x1024 .f32) (n : Fin 8192) (k : Fin 1024) :
    left (F := Ideal) s (ix2 n k) = s (ix2 n k) * Cert.ReferenceIdeal.Read.val_main_v8 (F := Ideal) s (ix1 n) := by
  show FloatOps.truncf .bf16 _ (FloatOps.mulf (s (ix2 n k)) _) = _
  rw [Ideal.truncf_def, Ideal.mulf_def, ← rowFactors_eq]
  refine congrArg (s (ix2 n k) * ·) ?_
  refine (broadcastInDim_apply _ bcast_S8192x1_S8192x1024_0_1 _ (ix2 n k) (ix2 n (0 : Fin 1)) (fun a => match a with
    | ⟨0, _⟩ => by show n.val = if (8192 : Nat) = 1 then 0 else n.val; rw [if_neg (by decide)]
    | ⟨1, _⟩ => by show 0 = if (1 : Nat) = 1 then 0 else k.val; rw [if_pos rfl])).trans ?_
  exact broadcastInDim_apply _ bcast_S8192_S8192x1_0 _ (ix2 n (0 : Fin 1)) (ix1 n) (fun a => match a with
    | ⟨0, _⟩ => by show n.val = if (8192 : Nat) = 1 then 0 else n.val; rw [if_neg (by decide)])

/-- ENTRY (b, k) of the second staged array. -/
theorem right_apply (x : FVec Ideal S2048x1024 .f32) (b : Fin 2048) (k : Fin 1024) :
    right (F := Ideal) x (ix2 b k) = x (ix2 b k) * Cert.ReferenceIdeal.Read.val_main_v3 (F := Ideal) x ix0 := by
  show FloatOps.truncf .bf16 _ (FloatOps.mulf (x (ix2 b k)) _) = _
  rw [Ideal.truncf_def, Ideal.mulf_def, ← wholeFactor_eq]
  refine congrArg (x (ix2 b k) * ·) ?_
  exact broadcastInDim_apply _ bcast_S_S2048x1024 _ (ix2 b k) ix0 (fun a => a.elim0)

end Cert.KernelIdeal.Inputs

end
-- ==== Proof.LibRealScale.lean ====
/-
  Extended-real facts for a matrix product whose two operands are scaled before the product is taken.

  An extended real is REAL when it is the image of a real number (neither infinity). On the reals multiplication
  distributes over a finite sum, so a factor common to every left operand and a factor common to every right operand
  leave the sum:  Σ_k (a_k · p) · (b_k · q) = ((Σ_k a_k · b_k) · p) · q.  On the extended reals this fails at the
  infinities (a sum holding both +∞ and -∞ collapses to -∞), which is why every operand is asked to be real.
  The scale factors met here are reciprocal square roots of max(y, ε) with y real and ε a positive real; such a
  maximum is a positive real, whose reciprocal square root is again real.
-/
import Idealize.ShloMosaic.PureOps.Ideal

noncomputable section

namespace Cert.RealScale

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_add {x y : EReal} (hx : IsReal x) (hy : IsReal y) : IsReal (x + y) := by
  obtain ⟨a, rfl⟩ := hx
  obtain ⟨b, rfl⟩ := hy
  exact ⟨a + b, (EReal.coe_add a b).symm⟩

/-- The inclusion of the reals commutes with finite sums. -/
theorem coe_sum {K : Type} (s : Finset K) (f : K → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of reals is real. -/
theorem isReal_sum {K : Type} [Fintype K] (f : K → EReal) (hf : ∀ k, IsReal (f k)) : IsReal (∑ k, f k) := by
  choose g hg using hf
  exact ⟨∑ k, g k, by rw [coe_sum]; exact Finset.sum_congr rfl fun k _ => hg k⟩

/-- The reciprocal square root of `max y e`, for `y` real and `e` a positive real, is real: the maximum is a positive
    real. -/
theorem isReal_rsqrt_max {y e : EReal} (hy : IsReal y) (he : ∃ r : ℝ, 0 < r ∧ e = (r : EReal)) :
    IsReal (Ideal.rsqrt (max y e)) := by
  obtain ⟨a, rfl⟩ := hy
  obtain ⟨b, hb, rfl⟩ := he
  have hpos : 0 < max a b := lt_max_of_lt_right hb
  rw [← EReal.coe_strictMono.monotone.map_max, Ideal.rsqrt_coe, if_neg (not_lt.2 hpos.le), if_neg hpos.ne']
  exact ⟨_, rfl⟩

/-- THE LAW: with every operand real, a common factor `p` of the left operands and a common factor `q` of the right
    operands leave the sum of products. -/
theorem sum_scale_scale {K : Type} [Fintype K] (a b : K → EReal) (p q : EReal) (ha : ∀ k, IsReal (a k))
    (hb : ∀ k, IsReal (b k)) (hp : IsReal p) (hq : IsReal q) :
    ∑ k, (a k * p) * (b k * q) = ((∑ k, a k * b k) * p) * q := by
  choose a' ha' using ha
  choose b' hb' using hb
  obtain ⟨p', rfl⟩ := hp
  obtain ⟨q', rfl⟩ := hq
  simp only [ha', hb', ← EReal.coe_mul, ← coe_sum]
  refine congrArg (fun r : ℝ => (r : EReal)) ?_
  rw [Finset.sum_mul, Finset.sum_mul]
  exact Finset.sum_congr rfl fun k _ => by ring

/-- The f32 word `0x2EDBE6FF` (the nearest float to 1e-10) denotes a positive real: a normal pattern, sign bit clear,
    exponent field 93, fraction field 6022911. -/
theorem eps_pos : ∃ r : ℝ, 0 < r ∧ Ideal.ofBits .f32 0x2EDBE6FF#32 = (r : EReal) := by
  refine ⟨((2 ^ 23 + 6022911 : ℕ) : ℝ) * (2 : ℝ) ^ ((93 : ℤ) - 127 - 23), by positivity, ?_⟩
  simp [Ideal.ofBits, Ideal.ieee, -EReal.coe_mul]

end Cert.RealScale

end
-- ==== Proof.Factors.lean ====
/-
  The reference's two scale factors and its result before the trailing unit axis, entry by entry.

  For an array `s` of 8192 rows the ROW FACTOR of row n is  rsqrt (max (Σ_k s[n,k]², ε));  for an array `x` the
  WHOLE-ARRAY FACTOR is  rsqrt (max (Σ_{b,k} x[b,k]², ε)).  When every entry is real each sum of squares is real, its
  maximum with the positive real ε is a positive real, and so each factor is real. Entry (n, b) of the reference's
  result is  ((Σ_k s[n,k] · x[b,k]) · rowFactor n) · wholeFactor.
-/
import proofs.«162758_j37692632989824_1_alg».proof.Proof.Gen.ReferenceIdeal.Read
import proofs.«162758_j37692632989824_1_alg».proof.Proof.LibRealScale
import Idealize.ShloMosaic.Lib.ValueIdx

noncomputable section

namespace Cert.ReferenceIdeal.Factors

open Cert.ReferenceIdeal Cert.ReferenceIdeal.Gen Cert.ReferenceIdeal.Read Idealize.ShloMosaic Cert.RealScale

/-- The row factors of an array with real entries are real. -/
theorem rowFactor_real (s : (⟨S8192x1024, .f32⟩ : BufTy).Contents (Elt Ideal)) (hs : ∀ i, IsReal (s i)) (n : S8192.Idx) :
    IsReal (val_main_v8 (F := Ideal) s n) := by
  rw [val_main_v8_apply, val_main_v7_apply, val_main_v5_apply, val_main_v6_apply, val_main_cst_2_apply,
    val_main_cst_1_apply]
  simp only [Ideal.hostUnary_rsqrt_def, Ideal.maximumf_def, Ideal.ofBits_def, Ideal.ofBits_zero_f32, val_main_v4_apply,
    Ideal.mulf_def]
  exact isReal_rsqrt_max (isReal_add isReal_zero (isReal_sum _ fun k => isReal_mul (hs _) (hs _))) eps_pos

/-- The whole-array factor of an array with real entries is real. -/
theorem wholeFactor_real (x : (⟨S2048x1024, .f32⟩ : BufTy).Contents (Elt Ideal)) (hx : ∀ i, IsReal (x i)) (i : S_.Idx) :
    IsReal (val_main_v3 (F := Ideal) x i) := by
  rw [val_main_v3_apply, val_main_v2_apply, val_main_v1_apply, val_main_cst_0_apply, val_main_cst_apply]
  simp only [Ideal.hostUnary_rsqrt_def, Ideal.maximumf_def, Ideal.ofBits_def, Ideal.ofBits_zero_f32, val_main_v0_apply,
    Ideal.mulf_def]
  exact isReal_rsqrt_max (isReal_add isReal_zero (isReal_sum _ fun k => isReal_mul (hx _) (hx _))) eps_pos

/-- ENTRY `i` of the reference's result before the trailing unit axis: the inner product of the two rows, times the row
    factor, times the whole-array factor. -/
theorem result_apply (s : (⟨S8192x1024, .f32⟩ : BufTy).Contents (Elt Ideal)) (x : (⟨S2048x1024, .f32⟩ : BufTy).Contents (Elt Ideal))
    (i : S8192x2048.Idx) :
    val_main_v14 (F := Ideal) s x i
      = ((∑ k : Fin 1024, s (lidx_main_v9 i k) * x (ridx_main_v9 i k)) * val_main_v8 (F := Ideal) s (idx_main_v10 (idx_main_v11 i)))
        * val_main_v3 (F := Ideal) x (idx_main_v13 i) := by
  rw [val_main_v14_apply, val_main_v12_apply, val_main_v9_apply, val_main_v11_apply, val_main_v10_apply, val_main_v13_apply]
  simp only [Ideal.mulf_def]

open Idealize.ShloMosaic.ValueIdx

/-- The same entry with its coordinates written out: row `n` of `s` against row `b` of `x`. -/
theorem result_ix (s : (⟨S8192x1024, .f32⟩ : BufTy).Contents (Elt Ideal)) (x : (⟨S2048x1024, .f32⟩ : BufTy).Contents (Elt Ideal))
    (n : Fin 8192) (b : Fin 2048) :
    val_main_v14 (F := Ideal) s x (ix2 n b)
      = ((∑ k : Fin 1024, s (ix2 n k) * x (ix2 b k)) * val_main_v8 (F := Ideal) s (ix1 n)) * val_main_v3 (F := Ideal) x ix0 := by
  rw [result_apply]
  have el : ∀ k : Fin 1024, lidx_main_v9 (ix2 n b) k = ix2 n k := fun k =>
    funext fun a => Fin.ext (by match a with | ⟨0, _⟩ => rfl | ⟨1, _⟩ => rfl)
  have er : ∀ k : Fin 1024, ridx_main_v9 (ix2 n b) k = ix2 b k := fun k =>
    funext fun a => Fin.ext (by match a with | ⟨0, _⟩ => rfl | ⟨1, _⟩ => rfl)
  have en : idx_main_v10 (idx_main_v11 (ix2 n b)) = ix1 n := funext fun a => Fin.ext (by match a with | ⟨0, _⟩ => rfl)
  have e0 : idx_main_v13 (ix2 n b) = ix0 := funext fun a => a.elim0
  rw [Finset.sum_congr rfl fun k _ => (by rw [el k, er k] :
    s (lidx_main_v9 (ix2 n b) k) * x (ridx_main_v9 (ix2 n b) k) = s (ix2 n k) * x (ix2 b k)), en, e0]

/-- THE BRIDGE, entry by entry: with real entries, the inner product of the SCALED rows — row `n` of `s` times its row
    factor against row `b` of `x` times the whole-array factor — is the reference's entry (n, b): both factors are real
    and leave the sum. -/
theorem entry_eq (s : (⟨S8192x1024, .f32⟩ : BufTy).Contents (Elt Ideal)) (x : (⟨S2048x1024, .f32⟩ : BufTy).Contents (Elt Ideal))
    (hs : ∀ i, IsReal (s i)) (hx : ∀ i, IsReal (x i)) (n : Fin 8192) (b : Fin 2048) :
    ∑ k : Fin 1024, (s (ix2 n k) * val_main_v8 (F := Ideal) s (ix1 n)) * (x (ix2 b k) * val_main_v3 (F := Ideal) x ix0)
      = val_main_v14 (F := Ideal) s x (ix2 n b) := by
  rw [result_ix]
  exact sum_scale_scale (fun k => s (ix2 n k)) (fun k => x (ix2 b k)) _ _ (fun k => hs _) (fun k => hx _)
    (rowFactor_real s hs _) (wholeFactor_real x hx _)

end Cert.ReferenceIdeal.Factors

end
-- ==== Proof.Product.lean ====
/-
  The kernel's output array after the run: the scaled product, which is the reference's result.

  The grid is 4 × 4. Point (i, j) stages rows [2048·i, 2048·i + 2048) of the scaled first array and rows
  [512·j, 512·j + 512) of the scaled second array, and writes back block (i, j) — 2048 × 512 — of the output. Entry (p, q)
  of what it writes is the inner product of row p of the one block with row q of the other, that is, of row
  n = 2048·i + p of  s · rowFactor  with row b = 512·j + q of  x · wholeFactor;  with real inputs that is the
  reference's entry (n, b). The sixteen blocks tile the 8192 × 2048 output: index (n, b) lies in the block of the
  point (n / 2048, b / 512). So the whole output array is the reference's result before its trailing unit axis.
-/
import proofs.«162758_j37692632989824_1_alg».proof.Proof.Gen.KernelIdeal.Frame
import proofs.«162758_j37692632989824_1_alg».proof.Proof.Body
import proofs.«162758_j37692632989824_1_alg».proof.Proof.Inputs
import proofs.«162758_j37692632989824_1_alg».proof.Proof.Factors
import Idealize.ShloMosaic.Lib.Pipeline.Value
import Idealize.ShloMosaic.Lib.ValueIdx

noncomputable section

namespace Cert.KernelIdeal.Product

open Cert.KernelIdeal Cert.KernelIdeal.Gen Idealize.ShloMosaic Idealize.ShloMosaic.TcCoe Idealize.SL.Sem
open Idealize.ShloMosaic.Pipeline (Dat)
open Idealize.ShloMosaic.ValueIdx Cert.RealScale

variable (m : (ℓ : Loc nD τ sig) → Buf (Elt Ideal) ℓ)

theorem hz : (![0, 0] : Fin 2 → Nat) = fun _ => 0 := funext fun a => by fin_cases a <;> rfl

/-- The output array the kernel is shown to leave: the reference's result before the trailing unit axis, of the
    arguments as launched. -/
abbrev result (c : Dev nD) : S8192x2048.Idx → EReal :=
  Cert.ReferenceIdeal.Read.val_main_v14 (F := Ideal) (m ((c : Thread nD τ).loc main_arg0)) (m ((c : Thread nD τ).loc main_arg1))

/-- The printed index maps, decided over the sixteen points: the first window's row block is the output's row block,
    the second window's row block is the output's COLUMN block, neither input is cut along its rows' length, and the
    output's block indices stay below four. -/
theorem idx_facts : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 3
    ∧ win0_2.index t (1 : Fin 2) ≤ 3 :=
  (by decide +kernel : ∀ t : Fin grid0.N, _)

/-- Every block of the output is some point's. -/
theorem idx_onto : ∀ (q0 : Fin 4) (q1 : Fin 4), ∃ t : Fin cfg0.N, win0_2.index t = ![q0.val, q1.val] :=
  (by decide +kernel : ∀ (q0 : Fin 4) (q1 : Fin 4), ∃ t : Fin grid0.N, win0_2.index t = ![q0.val, q1.val])

/-- Row `p` of the first window's block at point `t` is row `n` of the scaled first array, `n` the output's row. -/
theorem read_left (c : Dev nD) (t : Fin cfg0.N) (p : Fin 2048) (k : Fin 1024) (n : Fin 8192)
    (hn : n.val = win0_2.index t (0 : Fin 2) * 2048 + p.val) :
    (iblk m c 0 t (ix2 p k) : EReal) = Inputs.left (F := Ideal) (m ((c : Thread nD τ).loc main_arg0)) (ix2 n k) := by
  obtain ⟨e0, e1, e2, e3, e4, e5⟩ := idx_facts t
  show V m c main_v12 (((cfg0.win 0).blk t).view.emb (ix2 p k)) = _
  rw [Inputs.V_left]
  refine congrArg _ (funext fun a => Fin.ext ?_)
  match a with
  | ⟨0, _⟩ => show win0_0.index t (0 : Fin 2) * 2048 + 1 * p.val = n.val; omega
  | ⟨1, _⟩ => show win0_0.index t (1 : Fin 2) * 1024 + 1 * k.val = k.val; omega

/-- Row `q` of the second window's block at point `t` is row `b` of the scaled second array, `b` the output's column. -/
theorem read_right (c : Dev nD) (t : Fin cfg0.N) (q : Fin 512) (k : Fin 1024) (b : Fin 2048)
    (hb : b.val = win0_2.index t (1 : Fin 2) * 512 + q.val) :
    (iblk m c 1 t (ix2 q k) : EReal) = Inputs.right (F := Ideal) (m ((c : Thread nD τ).loc main_arg1)) (ix2 b k) := by
  obtain ⟨e0, e1, e2, e3, e4, e5⟩ := idx_facts t
  show V m c main_v15 (((cfg0.win 1).blk t).view.emb (ix2 q k)) = _
  rw [Inputs.V_right]
  refine congrArg _ (funext fun a => Fin.ext ?_)
  match a with
  | ⟨0, _⟩ => show win0_1.index t (0 : Fin 2) * 512 + 1 * q.val = b.val; omega
  | ⟨1, _⟩ => show win0_1.index t (1 : Fin 2) * 1024 + 1 * k.val = k.val; omega

/-- WHAT POINT `t` WRITES BACK is block `t` of the reference's result, when the arguments' entries are real. -/
theorem flushed_eq (c : Dev nD) (hs : ∀ i, IsReal (m ((c : Thread nD τ).loc main_arg0) i))
    (hx : ∀ i, IsReal (m ((c : Thread nD τ).loc main_arg1) i)) (t : Fin cfg0.N) :
    (dats m 0 c).flushed 2 t = ((cfg0.win 2).blk t).view.read (Elt Ideal) (result m c) := by
  show (cfg0.win 2).cut (grid0.coords t) ((dats m 0 c).after 2 t) = _
  rw [after0_2]
  unfold out0_2
  rw [View.canon_unit_zero hz]
  simp only [View.ld_unit_zero (S := S2048x1024) hz, View.ld_unit_zero (S := S512x1024) hz]
  funext j
  obtain ⟨p, q, rfl⟩ : ∃ (p : Fin 2048) (q : Fin 512), j = ix2 p q := ⟨j 0, j 1, eq_ix2 j⟩
  obtain ⟨e0, e1, e2, e3, e4, e5⟩ := idx_facts t
  obtain ⟨n, hn⟩ : ∃ n : Fin 8192, n.val = win0_2.index t (0 : Fin 2) * 2048 + p.val :=
    ⟨⟨_, by have := p.isLt; omega⟩, rfl⟩
  obtain ⟨b, hb⟩ : ∃ b : Fin 2048, b.val = win0_2.index t (1 : Fin 2) * 512 + q.val :=
    ⟨⟨_, by have := q.isLt; omega⟩, rfl⟩
  show k0_pay1 (iblk m c 0 t) (iblk m c 1 t) (ix2 p q) = result m c (((cfg0.win 2).blk t).view.emb (ix2 p q))
  have hemb : ((cfg0.win 2).blk t).view.emb (ix2 p q) = ix2 n b := by
    funext a; apply Fin.ext
    match a with
    | ⟨0, _⟩ => show win0_2.index t (0 : Fin 2) * 2048 + 1 * p.val = n.val; omega
    | ⟨1, _⟩ => show win0_2.index t (1 : Fin 2) * 512 + 1 * q.val = b.val; omega
  rw [hemb]
  refine (Body.pay_apply (iblk m c 0 t) (iblk m c 1 t) p q).trans ?_
  refine (Finset.sum_congr rfl fun k _ => ?_).trans (Cert.ReferenceIdeal.Factors.entry_eq _ _ hs hx n b)
  exact congrArg₂ (fun u v : EReal => u * v)
    ((read_left m c t p k n hn).trans (Inputs.left_apply _ n k))
    ((read_right m c t q k b hb).trans (Inputs.right_apply _ b k))

/-- An index of the output lies in point `t`'s block iff each coordinate lies in the block's range on its axis. -/
theorem mem_blk (t : Fin cfg0.N) (i : S8192x2048.Idx) :
    i ∈ ((cfg0.win 2).blk t).view.set ↔ ∀ a : Fin 2, win0_2.index t a * S2048x512.size a ≤ (i a).val
      ∧ (i a).val < win0_2.index t a * S2048x512.size a + S2048x512.size a := by
  show i ∈ ((View.whole main_v16).slice (win0_2.rect t)).set ↔ _
  rw [View.set_slice_whole, Rect.mem_set_unit]
  exact Iff.rfl

/-- The sixteen blocks cover the output: index (n, b) lies in the block of the point (n / 2048, b / 512). -/
theorem cover (i : S8192x2048.Idx) :
    ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨t, ht⟩ := idx_onto ⟨(i 0).val / 2048, by omega⟩ ⟨(i 1).val / 512, by omega⟩
  have q0 : win0_2.index t (0 : Fin 2) = (i 0).val / 2048 := congrFun ht 0
  have q1 : win0_2.index t (1 : Fin 2) = (i 1).val / 512 := congrFun ht 1
  refine ⟨t, flush0_2 t, ?_⟩
  rw [mem_blk]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 512 ≤ (i 1).val ∧ (i 1).val < win0_2.index t (1 : Fin 2) * 512 + 512
    omega

/-- THE OUTPUT ARRAY after the run is the reference's result before its trailing unit axis. -/
theorem final (c : Dev nD) (hs : ∀ i, IsReal (m ((c : Thread nD τ).loc main_arg0) i))
    (hx : ∀ i, IsReal (m ((c : Thread nD τ).loc main_arg1) i)) :
    (dats m 0 c).arrAt 2 cfg0.N = result m c :=
  (dats m 0 c).arrAt_eq_of_cover 2 (result m c) (fun t _ => flushed_eq m c hs hx t) cover

end Cert.KernelIdeal.Product

end
-- ==== Proof.Finite.lean ====
/-
  What the precondition says: every entry of both argument arrays is a real number.

  The precondition is  all (|a0| < +∞) ∧ all (|a1| < +∞),  each "all" a reduction by `and` of a comparison taken entry
  by entry. At the ideal values |x| is max x (-x) and the word `0x7F800000` is +∞; max x (-x) < +∞ excludes exactly
  x = +∞ and x = -∞, so it says that x is real.
-/
import proofs.«162758_j37692632989824_1_alg».proof.Proof.Gen.Pre_finite_inputs
import proofs.«162758_j37692632989824_1_alg».proof.Proof.LibRealScale
import Idealize.ShloMosaic.Lib.ReduceAll
import Idealize.ShloMosaic.Lib.ValueIdx
import Idealize.ShloMosaic.Lib.Affine

noncomputable section

namespace Cert.Finite

open Idealize.ShloMosaic Cert.RealScale Cert.Pre_finite_inputs

/-- The f32 word with exponent field all ones and fraction zero is +∞. -/
theorem top_word : Ideal.ofBits .f32 0x7F800000#32 = ⊤ := by simp [Ideal.ofBits, Ideal.ieee]

/-- An extended real whose absolute value is below +∞ is real. -/
theorem isReal_of_abs_lt (x : EReal) (h : Ideal.cmp .olt (max x (-x)) ⊤ = 1#1) : IsReal x := by
  unfold Ideal.cmp at h
  induction x using EReal.rec with
  | bot => simp at h
  | coe r => exact ⟨r, rfl⟩
  | top => simp at h

variable [hF : Cert.Pre_finite_inputs.Facts]

/-- Under the precondition every entry of both arrays is real. -/
theorem reals_of_pre (a0 : FVec Ideal S8192x1024 .f32) (a1 : FVec Ideal S2048x1024 .f32)
    (h : Cert.Pre_finite_inputs.fn (F := Ideal) a0 a1 = fun _ => 1#1) :
    (∀ i, IsReal (a0 i)) ∧ (∀ i, IsReal (a1 i)) := by
  have h0 := congrFun h ValueIdx.ix0
  dsimp only [Cert.Pre_finite_inputs.fn] at h0
  obtain ⟨e0, e1⟩ := IntOp.andi_eq_one.mp h0
  haveI : Subsingleton S_.Idx := ⟨fun a b => funext fun d => d.elim0⟩
  refine ⟨fun i => ?_, fun i => ?_⟩
  · have e : Ideal.cmp .olt (max (a0 i) (-(a0 i))) (Ideal.ofBits .f32 0x7F800000#32) = 1#1 :=
      Host.reduce_andi_all _ _ _ _ _ e0 i
    rw [top_word] at e
    exact isReal_of_abs_lt _ e
  · have e : Ideal.cmp .olt (max (a1 i) (-(a1 i))) (Ideal.ofBits .f32 0x7F800000#32) = 1#1 :=
      Host.reduce_andi_all _ _ _ _ _ e1 i
    rw [top_word] at e
    exact isReal_of_abs_lt _ e

end Cert.Finite

end
-- ==== Proof.Result.lean ====
/-
  The kernel's run, with its result named.

  After the region the host adds a trailing unit axis to the output array — the same operation the reference ends
  with. The region's output array is the reference's result before that axis (for arguments with real entries, which
  the precondition gives), so the kernel's result is the reference's result.
-/
import proofs.«162758_j37692632989824_1_alg».proof.Proof.Gen.KernelIdeal.Frame
import proofs.«162758_j37692632989824_1_alg».proof.Proof.Product
import proofs.«162758_j37692632989824_1_alg».proof.Proof.Finite
import Idealize.ShloMosaic.Lib.Pipeline.Value
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.StableHlo Cert.RealScale

variable (m : (ℓ : Loc nD τ sig) → Buf (Elt Ideal) ℓ) (ρ : Dev nD → PrngReg)

/-- What the host line after the region leaves in the result buffer: the region's output array with a trailing unit
    axis, which is the reference's result. -/
theorem tail_eq (c : Dev nD) (hs : ∀ i, IsReal (m ((c : Thread nD τ).loc main_arg0) i))
    (hx : ∀ i, IsReal (m ((c : Thread nD τ).loc main_arg1) i)) :
    Pipeline.afterTail₀ cfgs (dats m) 0 (V0 m) [hostOps1] c main_v17
      = Cert.ReferenceIdeal.Read.val_main_v15 (F := Ideal) (m ((c : Thread nD τ).loc main_arg0)) (m ((c : Thread nD τ).loc main_arg1)) := by
  unfold Pipeline.afterTail₀
  show StableHlo.after hostOps1 _ (Proc.devRef .tc main_v17) = _
  after_results
  exact congrArg (broadcastInDim S8192x2048x1 ![0, 1] bcast_S8192x2048_S8192x2048x1_0_1)
    ((Pipeline.withArrays_arr spec0 launch0.win.arr_inj c (V0 m c) (fun w => (dats m 0 c).arrAt w cfg0.N) 2).trans
      (Product.final m c hs hx))

variable [hF : Cert.Pre_finite_inputs.Facts]

/-- THE RUN: under the precondition every weakly fair execution of the kernel's program terminates, without a fault,
    with its result at the reference's result of the arguments as launched, and the arguments unchanged. -/
theorem run (hpre : ∀ c : Dev nD, Cert.Pre_finite_inputs.fn (F := Ideal) (m ((c.tc : Thread nD τ).loc main_arg0))
      (m ((c.tc : Thread nD τ).loc main_arg1)) = fun _ => 1#1) :
    θ_run defs (onTc (τ := τ) (main (F := Ideal))) ⟨m, fun _ => 0, ρ⟩ fun r => ∀ c : Dev nD,
      r.2.mem ((c.tc : Thread nD τ).loc main_v17)
          = Cert.ReferenceIdeal.Read.val_main_v15 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v17 (Pipeline.mem_restRefs_of main_v17 (by decide) (by decide))).trans
          (tail_eq m c (Cert.Finite.reals_of_pre _ _ (hpre c)).1 (Cert.Finite.reals_of_pre _ _ (hpre c)).2),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Result

end
-- ==== Proof.lean ====
/-
  The proof of `Cert.Claim` for a cosine-similarity kernel against its reference.

  With  p[n] = rsqrt (max (Σ_k s[n,k]², ε))  the factor of row n of the first argument and
  q = rsqrt (max (Σ_{b,k} x[b,k]², ε))  the one factor of the second argument:

    kernel:     out[n, b, 0] = Σ_k (s[n,k] · p[n]) · (x[b,k] · q)      the factors folded into the operands, then a
                                                                        matrix product block by block on a 4 × 4 grid;
    reference:  out[n, b, 0] = ((Σ_k s[n,k] · x[b,k]) · p[n]) · q      the product first, the factors afterwards.

  At the ideal values (floats extended reals, operations exact, narrowing to bf16 the identity) the two agree when
  every entry of both arguments is real, which is what the precondition says: the sums of squares are then real, their
  maxima with the positive real ε are positive reals, so p[n] and q are real, and real factors leave a finite sum
  (Proof/LibRealScale.lean). On the extended reals the step would fail at an infinite entry, so the precondition is
  used. The kernel's factors are computed by the same host operations as the reference's and are the same terms.

  The modules: LibRealScale (the law and the real-valuedness facts), Finite (the precondition read entry by entry),
  Factors (the reference's factors are real; its result entry by entry; the two sides' entry joined by the law), Body
  (the kernel body's stored block entry by entry), Inputs (the two scaled arrays the kernel stages), Product (from the
  sixteen blocks written back to the whole output array), Result (the trailing unit axis and the kernel's run).
  The three frames are the generated ones (the reference's is its generated run with the result dropped); the
  idealization rewrote no operation, so the preservation conjunct is `True`.
-/
import proofs.«162758_j37692632989824_1_alg».proof.Defs
import proofs.«162758_j37692632989824_1_alg».proof.Proof.Gen.Kernel
import proofs.«162758_j37692632989824_1_alg».proof.Proof.Gen.Kernel.Skeleton
import proofs.«162758_j37692632989824_1_alg».proof.Proof.Gen.Kernel.Launch
import proofs.«162758_j37692632989824_1_alg».proof.Proof.Gen.Kernel.Points
import proofs.«162758_j37692632989824_1_alg».proof.Proof.Gen.Kernel.Frame
import proofs.«162758_j37692632989824_1_alg».proof.Proof.Gen.KernelIdeal
import proofs.«162758_j37692632989824_1_alg».proof.Proof.Gen.KernelIdeal.Skeleton
import proofs.«162758_j37692632989824_1_alg».proof.Proof.Gen.KernelIdeal.Launch
import proofs.«162758_j37692632989824_1_alg».proof.Proof.Gen.KernelIdeal.Points
import proofs.«162758_j37692632989824_1_alg».proof.Proof.Gen.KernelIdeal.Frame
import proofs.«162758_j37692632989824_1_alg».proof.Proof.Gen.ReferenceIdeal
import proofs.«162758_j37692632989824_1_alg».proof.Proof.Gen.Pre_finite_inputs
import proofs.«162758_j37692632989824_1_alg».proof.Proof.Gen.ReferenceIdeal.Run
import proofs.«162758_j37692632989824_1_alg».proof.Proof.Gen.ReferenceIdeal.Read
import proofs.«162758_j37692632989824_1_alg».proof.Proof.Result
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the reference's result of those arguments: the
    kernel by its run (Proof/Result.lean), the reference by its generated run read stage by stage. -/
theorem algebraic : Cert.algebraic_KernelIdeal_ReferenceIdeal := by
  intro m ρ m' ρ' hpre hagree
  refine ⟨fun c => Cert.ReferenceIdeal.Read.val_main_v15 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ hpre, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v15_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
